-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000 : Shape := ⟨1, ![1000]⟩
abbrev S4194304x3 : Shape := ⟨2, ![4194304, 3]⟩
abbrev S1 : Shape := ⟨1, ![1]⟩
abbrev S_ : Shape := ⟨0, ![]⟩

class Facts : Prop where
  bcast_S_S1000 : S_.BroadcastsInDim S1000 (![] : Fin 0 → Fin S1000.rank)
  reducesTo_S1000_S_d0 : S1000.ReducesTo [0] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_arg6 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S1000 .f32) (main_arg1 : IVec S4194304x3 32) (main_arg2 : FVec F S1 .f32) (main_arg3 : FVec F S1 .f32) (main_arg4 : FVec F S1 .f32) (main_arg5 : FVec F S1 .f32) (main_arg6 : FVec F S1 .f32) : IVec S_ 1 :=
  let main_v0 : FVec F S1000 .f32 := Host.absf main_arg0
  let main_cst : FVec F S_ .f32 := constant S_ .f32 0x7F800000#32
  let main_v1 : FVec F S1000 .f32 := broadcastInDim S1000 ![] bcast_S_S1000 main_cst
  let main_v2 : IVec S1000 1 := cmpf .olt main_v0 main_v1
  let main_c : IVec S_ 1 := constantI S_ 1 1#1
  let main_v3 : IVec S_ 1 := (fun x v => Host.reduce IntOp.andi x v reducesTo_S1000_S_d0 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_v13 main_v16
-- ==== Kernel.lean ====
abbrev S1000 : Shape := ⟨1, ![1000]⟩
abbrev S4194304x3 : Shape := ⟨2, ![4194304, 3]⟩
abbrev S1 : Shape := ⟨1, ![1]⟩
abbrev S_ : Shape := ⟨0, ![]⟩
abbrev S4194304x1 : Shape := ⟨2, ![4194304, 1]⟩
abbrev S4194304 : Shape := ⟨1, ![4194304]⟩
abbrev S32768x128 : Shape := ⟨2, ![32768, 128]⟩
abbrev S8192x128 : Shape := ⟨2, ![8192, 128]⟩

abbrev nBuf : Space → Nat
  | .hbm => 119
  | .vmem => 6
  | .smem => 0
  | _ => 0

abbrev bufTy : (tb : Table) → Fin (tcTables nBuf tb) → BufTy
  | .hbm, ⟨0, _⟩ => ⟨S1000, .f32⟩
  | .hbm, ⟨1, _⟩ => ⟨S4194304x3, .i32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1, .f32⟩
  | .hbm, ⟨26, _⟩ => ⟨S1, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1, .f32⟩
  | .hbm, ⟨35, _⟩ => ⟨S1, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S1, .f32⟩
  | .hbm, ⟨45, _⟩ => ⟨S_, .f32⟩
  | .hbm, ⟨46, _⟩ => ⟨S1, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S1, .f32⟩
  | .hbm, ⟨51, _⟩ => ⟨S1000, .f32⟩
  | .hbm, ⟨52, _⟩ => ⟨S1000, .f32⟩
  | .hbm, ⟨53, _⟩ => ⟨S1, .f32⟩
  | .hbm, ⟨54, _⟩ => ⟨S_, .f32⟩
  | .hbm, ⟨55, _⟩ => ⟨S1, .f32⟩
  | .hbm, ⟨56, _⟩ => ⟨S1, .f32⟩
  | .hbm, ⟨57, _⟩ => ⟨S1000, .f32⟩
  | .hbm, ⟨58, _⟩ => ⟨S1000, .f32⟩
  | .hbm, ⟨59, _⟩ => ⟨S1000, .f32⟩
  | .hbm, ⟨60, _⟩ => ⟨S1000, .i1⟩
  | .hbm, ⟨61, _⟩ => ⟨S1000, .f32⟩
  | .hbm, ⟨62, _⟩ => ⟨S1000, .i1⟩
  | .hbm, ⟨63, _⟩ => ⟨S_, .f32⟩
  | .hbm, ⟨64, _⟩ => ⟨S_, .f32⟩
  | .hbm, ⟨65, _⟩ => ⟨S1000, .f32⟩
  | .hbm, ⟨66, _⟩ => ⟨S1000, .f32⟩
  | .hbm, ⟨67, _⟩ => ⟨S_, .f32⟩
  | .hbm, ⟨68, _⟩ => ⟨S_, .f32⟩
  | .hbm, ⟨69, _⟩ => ⟨S1000, .f32⟩
  | .hbm, ⟨70, _⟩ => ⟨S1000, .f32⟩
  | .hbm, ⟨71, _⟩ => ⟨S1000, .f32⟩
  | .hbm, ⟨72, _⟩ => ⟨S1000, .f32⟩
  | .hbm, ⟨73, _⟩ => ⟨S1000, .f32⟩
  | .hbm, ⟨74, _⟩ => ⟨S1000, .f32⟩
  | .hbm, ⟨75, _⟩ => ⟨S1, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S1000, .f32⟩
  | .hbm, ⟨80, _⟩ => ⟨S1000, .f32⟩
  | .hbm, ⟨81, _⟩ => ⟨S1000, .f32⟩
  | .hbm, ⟨82, _⟩ => ⟨S1000, .i1⟩
  | .hbm, ⟨83, _⟩ => ⟨S1000, .f32⟩
  | .hbm, ⟨84, _⟩ => ⟨S1000, .i1⟩
  | .hbm, ⟨85, _⟩ => ⟨S_, .f32⟩
  | .hbm, ⟨86, _⟩ => ⟨S_, .f32⟩
  | .hbm, ⟨87, _⟩ => ⟨S1000, .f32⟩
  | .hbm, ⟨88, _⟩ => ⟨S1000, .f32⟩
  | .hbm, ⟨89, _⟩ => ⟨S_, .f32⟩
  | .hbm, ⟨90, _⟩ => ⟨S_, .f32⟩
  | .hbm, ⟨91, _⟩ => ⟨S1000, .f32⟩
  | .hbm, ⟨92, _⟩ => ⟨S1000, .f32⟩
  | .hbm, ⟨93, _⟩ => ⟨S4194304x1, .i32⟩
  | .hbm, ⟨94, _⟩ => ⟨S4194304, .i32⟩
  | .hbm, ⟨95, _⟩ => ⟨S4194304x1, .i32⟩
  | .hbm, ⟨96, _⟩ => ⟨S4194304, .i32⟩
  | .hbm, ⟨97, _⟩ => ⟨S_, .i32⟩
  | .hbm, ⟨98, _⟩ => ⟨S4194304, .i32⟩
  | .hbm, ⟨99, _⟩ => ⟨S4194304, .i1⟩
  | .hbm, ⟨100, _⟩ => ⟨S_, .i32⟩
  | .hbm, ⟨101, _⟩ => ⟨S4194304, .i32⟩
  | .hbm, ⟨102, _⟩ => ⟨S4194304, .i32⟩
  | .hbm, ⟨103, _⟩ => ⟨S4194304, .i32⟩
  | .hbm, ⟨104, _⟩ => ⟨S4194304x1, .i32⟩
  | .hbm, ⟨105, _⟩ => ⟨S4194304, .f32⟩
  | .hbm, ⟨106, _⟩ => ⟨S_, .i32⟩
  | .hbm, ⟨107, _⟩ => ⟨S4194304, .i32⟩
  | .hbm, ⟨108, _⟩ => ⟨S4194304, .i1⟩
  | .hbm, ⟨109, _⟩ => ⟨S_, .i32⟩
  | .hbm, ⟨110, _⟩ => ⟨S4194304, .i32⟩
  | .hbm, ⟨111, _⟩ => ⟨S4194304, .i32⟩
  | .hbm, ⟨112, _⟩ => ⟨S4194304, .i32⟩
  | .hbm, ⟨113, _⟩ => ⟨S4194304x1, .i32⟩
  | .hbm, ⟨114, _⟩ => ⟨S4194304, .f32⟩
  | .hbm, ⟨115, _⟩ => ⟨S32768x128, .f32⟩
  | .hbm, ⟨116, _⟩ => ⟨S32768x128, .f32⟩
  | .hbm, ⟨117, _⟩ => ⟨S32768x128, .f32⟩
  | .hbm, ⟨118, _⟩ => ⟨S4194304, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_call0_v0 : Ref sig .tc := ⟨.hbm, 64, rfl⟩
abbrev main_call0_v1 : Ref sig .tc := ⟨.hbm, 65, rfl⟩
abbrev main_v45 : Ref sig .tc := ⟨.hbm, 66, rfl⟩
abbrev main_cst_11 : Ref sig .tc := ⟨.hbm, 67, rfl⟩
abbrev main_call1_v0 : Ref sig .tc := ⟨.hbm, 68, rfl⟩
abbrev main_call1_v1 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_call2_v0 : Ref sig .tc := ⟨.hbm, 86, rfl⟩
abbrev main_call2_v1 : Ref sig .tc := ⟨.hbm, 87, rfl⟩
abbrev main_v60 : Ref sig .tc := ⟨.hbm, 88, rfl⟩
abbrev main_cst_14 : Ref sig .tc := ⟨.hbm, 89, rfl⟩
abbrev main_call3_v0 : Ref sig .tc := ⟨.hbm, 90, rfl⟩
abbrev main_call3_v1 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1 : S_.BroadcastsInDim S1 (![] : Fin 0 → Fin S1.rank)
  bcast_S1_S1000_0 : S1.BroadcastsInDim S1000 (![0] : Fin 1 → Fin S1000.rank)
  bcast_S_S1000 : S_.BroadcastsInDim S1000 (![] : Fin 0 → Fin S1000.rank)
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  shapeCasts_S4194304_S32768x128 : S4194304.ShapeCasts S32768x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S32768x128_S4194304 : S32768x128.ShapeCasts S4194304
  gather_S1000_S4194304x1_S4194304_n_0_n_n_0_1_1_wf : GatherDims.WF S1000 S4194304x1 S4194304 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S32768x128.size a
  hwx0_0 : ∀ i : grid0.Coords, EltTy.bits .f32 = 32 ∨ (Rect.block (s := S32768x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S32768x128.size a
  hwx0_1 : ∀ i : grid0.Coords, EltTy.bits .f32 = 32 ∨ (Rect.block (s := S32768x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S32768x128.size a
  hwx0_2 : ∀ i : grid0.Coords, EltTy.bits .f32 = 32 ∨ (Rect.block (s := S32768x128) S8192x128.size (cc0_transform_2 i) (hinb0_2 i)).WholeWords (EltTy.packing .f32)

variable [Facts₀]

def gather_S1000_S4194304x1_S4194304_n_0_n_n_0_1_1 : GatherDims S1000 S4194304x1 S4194304 where
  offsetDims := []
  collapsedSliceDims := [0]
  operandBatchingDims := []
  startIndicesBatchingDims := []
  startIndexMap := [0]
  indexVectorDim := 1
  sliceSizes := ![1]
  wf := gather_S1000_S4194304x1_S4194304_n_0_n_n_0_1_1_wf

abbrev win0_0 : Pipeline.Window sig grid0 :=
  Pipeline.Window.ofSpec (Memref.whole main_v80) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v81) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v82) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000 : Shape := ⟨1, ![1000]⟩
abbrev S4194304x3 : Shape := ⟨2, ![4194304, 3]⟩
abbrev S1 : Shape := ⟨1, ![1]⟩
abbrev S_ : Shape := ⟨0, ![]⟩
abbrev S4194304x1 : Shape := ⟨2, ![4194304, 1]⟩
abbrev S4194304 : Shape := ⟨1, ![4194304]⟩

abbrev nBuf : Space → Nat
  | .hbm => 116
  | .vmem => 0
  | .smem => 0
  | _ => 0

abbrev bufTy : (tb : Table) → Fin (tcTables nBuf tb) → BufTy
  | .hbm, ⟨0, _⟩ => ⟨S1000, .f32⟩
  | .hbm, ⟨1, _⟩ => ⟨S4194304x3, .i32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1, .f32⟩
  | .hbm, ⟨26, _⟩ => ⟨S1, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1, .f32⟩
  | .hbm, ⟨35, _⟩ => ⟨S1, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S1, .f32⟩
  | .hbm, ⟨45, _⟩ => ⟨S_, .f32⟩
  | .hbm, ⟨46, _⟩ => ⟨S1, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S1, .f32⟩
  | .hbm, ⟨51, _⟩ => ⟨S4194304x1, .i32⟩
  | .hbm, ⟨52, _⟩ => ⟨S4194304, .i32⟩
  | .hbm, ⟨53, _⟩ => ⟨S_, .i32⟩
  | .hbm, ⟨54, _⟩ => ⟨S4194304, .i32⟩
  | .hbm, ⟨55, _⟩ => ⟨S4194304, .i1⟩
  | .hbm, ⟨56, _⟩ => ⟨S_, .i32⟩
  | .hbm, ⟨57, _⟩ => ⟨S4194304, .i32⟩
  | .hbm, ⟨58, _⟩ => ⟨S4194304, .i32⟩
  | .hbm, ⟨59, _⟩ => ⟨S4194304, .i32⟩
  | .hbm, ⟨60, _⟩ => ⟨S4194304x1, .i32⟩
  | .hbm, ⟨61, _⟩ => ⟨S4194304, .f32⟩
  | .hbm, ⟨62, _⟩ => ⟨S4194304x1, .i32⟩
  | .hbm, ⟨63, _⟩ => ⟨S4194304, .i32⟩
  | .hbm, ⟨64, _⟩ => ⟨S_, .i32⟩
  | .hbm, ⟨65, _⟩ => ⟨S4194304, .i32⟩
  | .hbm, ⟨66, _⟩ => ⟨S4194304, .i1⟩
  | .hbm, ⟨67, _⟩ => ⟨S_, .i32⟩
  | .hbm, ⟨68, _⟩ => ⟨S4194304, .i32⟩
  | .hbm, ⟨69, _⟩ => ⟨S4194304, .i32⟩
  | .hbm, ⟨70, _⟩ => ⟨S4194304, .i32⟩
  | .hbm, ⟨71, _⟩ => ⟨S4194304x1, .i32⟩
  | .hbm, ⟨72, _⟩ => ⟨S4194304, .f32⟩
  | .hbm, ⟨73, _⟩ => ⟨S4194304, .f32⟩
  | .hbm, ⟨74, _⟩ => ⟨S4194304, .f32⟩
  | .hbm, ⟨75, _⟩ => ⟨S1, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S4194304, .f32⟩
  | .hbm, ⟨80, _⟩ => ⟨S4194304, .f32⟩
  | .hbm, ⟨81, _⟩ => ⟨S4194304, .f32⟩
  | .hbm, ⟨82, _⟩ => ⟨S4194304, .i1⟩
  | .hbm, ⟨83, _⟩ => ⟨S4194304, .f32⟩
  | .hbm, ⟨84, _⟩ => ⟨S4194304, .i1⟩
  | .hbm, ⟨85, _⟩ => ⟨S_, .f32⟩
  | .hbm, ⟨86, _⟩ => ⟨S_, .f32⟩
  | .hbm, ⟨87, _⟩ => ⟨S4194304, .f32⟩
  | .hbm, ⟨88, _⟩ => ⟨S4194304, .f32⟩
  | .hbm, ⟨89, _⟩ => ⟨S_, .f32⟩
  | .hbm, ⟨90, _⟩ => ⟨S_, .f32⟩
  | .hbm, ⟨91, _⟩ => ⟨S4194304, .f32⟩
  | .hbm, ⟨92, _⟩ => ⟨S4194304, .f32⟩
  | .hbm, ⟨93, _⟩ => ⟨S4194304, .f32⟩
  | .hbm, ⟨94, _⟩ => ⟨S4194304, .f32⟩
  | .hbm, ⟨95, _⟩ => ⟨S1, .f32⟩
  | .hbm, ⟨96, _⟩ => ⟨S_, .f32⟩
  | .hbm, ⟨97, _⟩ => ⟨S1, .f32⟩
  | .hbm, ⟨98, _⟩ => ⟨S1, .f32⟩
  | .hbm, ⟨99, _⟩ => ⟨S4194304, .f32⟩
  | .hbm, ⟨100, _⟩ => ⟨S4194304, .f32⟩
  | .hbm, ⟨101, _⟩ => ⟨S4194304, .f32⟩
  | .hbm, ⟨102, _⟩ => ⟨S4194304, .i1⟩
  | .hbm, ⟨103, _⟩ => ⟨S4194304, .f32⟩
  | .hbm, ⟨104, _⟩ => ⟨S4194304, .i1⟩
  | .hbm, ⟨105, _⟩ => ⟨S_, .f32⟩
  | .hbm, ⟨106, _⟩ => ⟨S_, .f32⟩
  | .hbm, ⟨107, _⟩ => ⟨S4194304, .f32⟩
  | .hbm, ⟨108, _⟩ => ⟨S4194304, .f32⟩
  | .hbm, ⟨109, _⟩ => ⟨S_, .f32⟩
  | .hbm, ⟨110, _⟩ => ⟨S_, .f32⟩
  | .hbm, ⟨111, _⟩ => ⟨S4194304, .f32⟩
  | .hbm, ⟨112, _⟩ => ⟨S4194304, .f32⟩
  | .hbm, ⟨113, _⟩ => ⟨S4194304, .f32⟩
  | .hbm, ⟨114, _⟩ => ⟨S4194304, .f32⟩
  | .hbm, ⟨115, _⟩ => ⟨S4194304, .f32⟩
  | _, _ => ⟨S1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_call0_v0 : Ref sig .tc := ⟨.hbm, 86, rfl⟩
abbrev main_call0_v1 : Ref sig .tc := ⟨.hbm, 87, rfl⟩
abbrev main_v63 : Ref sig .tc := ⟨.hbm, 88, rfl⟩
abbrev main_cst_14 : Ref sig .tc := ⟨.hbm, 89, rfl⟩
abbrev main_call1_v0 : Ref sig .tc := ⟨.hbm, 90, rfl⟩
abbrev main_call1_v1 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_call2_v0 : Ref sig .tc := ⟨.hbm, 106, rfl⟩
abbrev main_call2_v1 : Ref sig .tc := ⟨.hbm, 107, rfl⟩
abbrev main_v76 : Ref sig .tc := ⟨.hbm, 108, rfl⟩
abbrev main_cst_17 : Ref sig .tc := ⟨.hbm, 109, rfl⟩
abbrev main_call3_v0 : Ref sig .tc := ⟨.hbm, 110, rfl⟩
abbrev main_call3_v1 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]

class Facts₀ : Prop where
  bcast_S_S1 : S_.BroadcastsInDim S1 (![] : Fin 0 → Fin S1.rank)
  slices_S4194304x3_S4194304x1_0_0 : S4194304x3.Slices ![0, 0] S4194304x1
  shapeCasts_S4194304x1_S4194304 : S4194304x1.ShapeCasts S4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  slices_S4194304x3_S4194304x1_0_1 : S4194304x3.Slices ![0, 1] S4194304x1
  bcast_S1_S4194304_0 : S1.BroadcastsInDim S4194304 (![0] : Fin 1 → Fin S4194304.rank)
  gather_S1000_S4194304x1_S4194304_n_0_n_n_0_1_1_wf : GatherDims.WF S1000 S4194304x1 S4194304 [] [0] [] [0] [] 1 ![1]

variable [Facts₀]

def gather_S1000_S4194304x1_S4194304_n_0_n_n_0_1_1 : GatherDims S1000 S4194304x1 S4194304 where
  offsetDims := []
  collapsedSliceDims := [0]
  operandBatchingDims := []
  startIndicesBatchingDims := []
  startIndexMap := [0]
  indexVectorDim := 1
  sliceSizes := ![1]
  wf := gather_S1000_S4194304x1_S4194304_n_0_n_n_0_1_1_wf

class Facts : Prop extends Facts₀ where

variable [Facts]
-- ==== Proof.KernelBlocks.lean ====
/-
  The kernel's one region: what its output array holds when the region ends.

  The grid has four points; at point `t` the body loads rows `8192·t … 8192·t + 8191` of both 32768 × 128 operand arrays,
  multiplies them entry by entry and stores the product over the same rows of the result. All three index maps send
  point `t` to block `(t, 0)`, so the block written back at `t` is block `t` of the entrywise product of the WHOLE
  operand arrays, and the four blocks tile the result: row `r` lies in the block of point `r / 8192`. Hence the result
  array ends holding the product of the two operand arrays as the region found them.
-/
import proofs.«124647_j6064493822065_2_alg».proof.Proof.Gen.KernelIdeal.Frame
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- The entrywise product of two 32768 × 128 arrays. -/
abbrev prod (a0 a1 : S32768x128.Idx → Elt F .f32) : S32768x128.Idx → Elt F .f32 := fun i => FloatOps.mulf (a0 i) (a1 i)

/-- The body's stored value is the product of its two loaded blocks (the reshapes to the same shape change nothing). -/
theorem payload_eq (x0 x1 : Vec F S8192x128 .f32) : k0_pay1 x0 x1 = mulf x0 x1 := by
  unfold k0_pay1
  simp only [shapeCast_self]

/-- The three index maps at a point: each sends point `t` to block `(t, 0)`. -/
theorem block_of_point : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 3 ∧ win0_2.index t (1 : Fin 2) = 0 :=
  (by decide +kernel : ∀ t : Fin grid0.N, _)

/-- Every block row is some point's. -/
theorem point_of_block : ∀ q : Fin 4, ∃ t : Fin cfg0.N, win0_2.index t = ![q.val, 0] :=
  (by decide +kernel : ∀ q : Fin 4, ∃ t : Fin grid0.N, win0_2.index t = ![q.val, 0])

/-- Block `t` of the first operand times block `t` of the second is block `t` of the product, for ANY two arrays: the
    three windows read the same rows at every point. -/
theorem block_prod (A0 A1 : S32768x128.Idx → Elt F .f32) (t : Fin cfg0.N) :
    (cfg0.win 2).cut (grid0.coords t) (mulf (((cfg0.win 0).blk t).view.read (Elt F) A0) (((cfg0.win 1).blk t).view.read (Elt F) A1))
      = ((cfg0.win 2).blk t).view.read (Elt F) (prod A0 A1) := by
  obtain ⟨e0, e1, e2, e3, _, _⟩ := block_of_point t
  funext j
  show FloatOps.mulf (A0 (((cfg0.win 0).blk t).view.emb j)) (A1 (((cfg0.win 1).blk t).view.emb j)) = FloatOps.mulf (A0 (((cfg0.win 2).blk t).view.emb j)) (A1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

/-- WHAT POINT `t` WRITES BACK is block `t` of the product of the operand arrays as the region finds them. -/
theorem flushed_eq (c : Dev nD) (t : Fin cfg0.N) :
    (dats m 0 c).flushed 2 t = ((cfg0.win 2).blk t).view.read (Elt F) (prod (V m c main_v80) (V m c main_v81)) := by
  show (cfg0.win 2).cut (grid0.coords t) ((dats m 0 c).after 2 t) = _
  rw [after0_2]
  unfold out0_2
  rw [View.canon_unit_zero origin]
  simp only [View.ld_unit_zero (S := S8192x128) origin]
  rw [payload_eq]
  exact block_prod (V m c main_v80) (V m c main_v81) t

/-- An index of the result array is in point `t`'s block iff each coordinate is in the block's range on its axis. -/
theorem mem_block (t : Fin cfg0.N) (i : S32768x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v82).slice (win0_2.rect t)).set ↔ _
  rw [View.set_slice_whole, Rect.mem_set_unit]
  exact Iff.rfl

/-- THE BLOCKS TILE THE RESULT: row `r` is in the block of the point that writes block row `r / 8192`. -/
theorem covered (i : S32768x128.Idx) :
    ∃ t : Fin cfg0.N, (cfg0.win 2).flush t = true ∧ i ∈ ((cfg0.win 2).blk t).view.set := by
  have hi0 : (i 0).val < 32768 := (i 0).isLt
  have hi1 : (i 1).val < 128 := (i 1).isLt
  obtain ⟨t, ht⟩ := point_of_block ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- THE RESULT ARRAY when the region ends: the product of the two operand arrays. -/
theorem region_result (c : Dev nD) : (dats m 0 c).arrAt 2 cfg0.N = prod (V m c main_v80) (V m c main_v81) :=
  (dats m 0 c).arrAt_eq_of_cover 2 (prod (V m c main_v80) (V m c main_v81)) (fun t _ => flushed_eq m c t) covered

end Cert.KernelIdeal.Blocks

end
-- ==== Proof.LibEntrywise.lean ====
/-
  Operands with a single entry, and layout operations against a map applied entry by entry.

  * A vector with one entry holds one value, whatever index reads it (`unit_read`). Broadcast to any shape along any
    axes it reads that value everywhere (`bcast_unit_apply`); so does a broadcast scalar (`bcast_scalar_apply`).
  * A gather only chooses WHICH operand entry each result entry reads. So gathering from a table whose entries are
    `f` of another table's entries is `f` of the gathered entries (`gather_map`, `gather_map₂`): looking a value up
    in a precomputed table of `f` and computing `f` after the lookup agree, for every start index, in range or
    clamped.
  * A reshape permutes nothing but the index, so it passes through an entrywise product (`shapeCast_mulf`), and the
    product of two reshaped arrays, reshaped back, is the product of the arrays (`mulf_reshaped_back`).
-/
import Idealize.ShloMosaic.Lib.Pipeline.Value
import Idealize.ShloMosaic.Lib.ValueIdx

noncomputable section

namespace Cert.LibEntrywise

open Idealize.ShloMosaic Idealize.ShloMosaic.ValueIdx

variable {α β γ : Type}

/-- The one-entry vector shape. -/
abbrev U1 : Shape := ⟨1, ![1]⟩
/-- The scalar shape. -/
abbrev U0 : Shape := ⟨0, ![]⟩

/-- A one-entry vector reads the same at any two indices: there is only one. -/
theorem unit_read (x : U1.Idx → α) (i k : U1.Idx) : x i = x k := by
  congr 1
  funext d
  match d with
  | ⟨0, _⟩ =>
    have hi : (i 0).val < 1 := (i 0).isLt
    have hk : (k 0).val < 1 := (k 0).isLt
    apply Fin.ext
    show (i 0).val = (k 0).val
    omega

/-- A one-entry vector broadcast to any shape reads its one value at every index. -/
theorem bcast_unit_apply {t : Shape} (dims : Fin U1.rank → Fin t.rank) (h : U1.BroadcastsInDim t dims) (x : U1.Idx → α)
    (j : t.Idx) : broadcastInDim t dims h x j = x (ix1 0) := by
  unfold broadcastInDim
  exact unit_read x _ _

/-- A scalar broadcast to any shape reads its value at every index. -/
theorem bcast_scalar_apply {t : Shape} (dims : Fin U0.rank → Fin t.rank) (h : U0.BroadcastsInDim t dims) (x : U0.Idx → α)
    (j : t.Idx) : broadcastInDim t dims h x j = x ix0 := by
  unfold broadcastInDim
  exact congrArg x (eq_ix0 _)

/-- A gather of a table of `f`-values is `f` of the gathered values. -/
theorem gather_map {s si t : Shape} {w : Nat} (d : GatherDims s si t) (f : α → β) (x : s.Idx → α) (idx : IVec si w) :
    Host.gather d (fun k => f (x k)) idx = fun j => f (Host.gather d x idx j) := rfl

/-- The same for a table built entrywise from two tables. -/
theorem gather_map₂ {s si t : Shape} {w : Nat} (d : GatherDims s si t) (f : α → β → γ) (x : s.Idx → α) (y : s.Idx → β)
    (idx : IVec si w) :
    Host.gather d (fun k => f (x k) (y k)) idx = fun j => f (Host.gather d x idx j) (Host.gather d y idx j) := rfl

section Float
variable {F : FTy → Type} [FloatOps F] {φ : FTy}

/-- A reshape of an entrywise product is the product of the reshaped factors. -/
theorem shapeCast_mulf {s t : Shape} (a b : FVec F s φ) (h : s.ShapeCasts t) :
    shapeCast t (mulf a b) h = mulf (shapeCast t a h) (shapeCast t b h) := rfl

/-- Two arrays reshaped, multiplied entry by entry and reshaped back: the product of the two arrays. -/
theorem mulf_reshaped_back {s t : Shape} (a b : FVec F s φ) (h : s.ShapeCasts t) (h' : t.ShapeCasts s) :
    shapeCast s (mulf (shapeCast t a h) (shapeCast t b h)) h' = mulf a b := by
  rw [← shapeCast_mulf, shapeCast_shapeCast]

end Float

end Cert.LibEntrywise

end
-- ==== Proof.PerfSpec.lean ====
/-
  The performance model both programs compute, and the law that joins their two arrangements of it.

  For an observation `n` with bin indices `i₀ n`, `i₁ n` into a table `c` of 1000 bin centres the result is
      perf n = ramp₁ (c[i₀ n]) · ramp₂ (c[i₁ n]) · r,
  where `ramp lb ub x = 1` if `x ≤ lb`, `0` if `x > ub`, and `(ub − x) / (ub − lb + ε)` between, the bounds are logistic
  squashings `σ(min(a, b))`, `σ(max(a, b))` of two raw parameters, and `r = σ(resp)`.

  One program looks the bin centres up first and applies the ramps to the 4194304 looked-up values, multiplying by `r`
  last: `(ramp₁(c[i₀]) · ramp₂(c[i₁])) · r`. The other applies the ramps to the 1000 table entries, folds `r` into the first
  table, looks the ramp VALUES up, and multiplies the two looked-up streams (reshaped to 32768 × 128 and back):
  `(ramp₁(c)·r)[i₀] · ramp₂(c)[i₁]`. Two facts make them one function:
    * a lookup only chooses an entry, so the ramp of a looked-up centre is the looked-up ramp value
      (`gather_ramp`, from `LibEntrywise.gather_map`), for every index, in range or clamped;
    * `(a · r) · b = (a · b) · r` in the extended reals, where multiplication is commutative and associative with no
      finiteness needed (`mul_right_comm`).
-/
import proofs.«124647_j6064493822065_2_alg».proof.Proof.LibEntrywise
import Idealize.ShloMosaic.PureOps.Ideal

noncomputable section

namespace Cert.Perf

open Idealize.ShloMosaic Idealize.ShloMosaic.ValueIdx Cert.LibEntrywise

/-! ## Shapes and their side conditions -/

/-- A vector of `n` entries. -/
abbrev vec (n : Nat) : Shape := ⟨1, ![n]⟩
/-- The observations' index triples, one column of them, and the two layouts of the 4194304 results. -/
abbrev SObs3 : Shape := ⟨2, ![4194304, 3]⟩
abbrev SObs1 : Shape := ⟨2, ![4194304, 1]⟩
abbrev SObs : Shape := vec 4194304
abbrev STile : Shape := ⟨2, ![32768, 128]⟩
abbrev STab : Shape := vec 1000

theorem b01 : U0.BroadcastsInDim U1 (![] : Fin 0 → Fin U1.rank) := by decide
theorem b0T : U0.BroadcastsInDim STab (![] : Fin 0 → Fin STab.rank) := by decide
theorem b1T : U1.BroadcastsInDim STab (![0] : Fin 1 → Fin STab.rank) := by decide
theorem b0N : U0.BroadcastsInDim SObs (![] : Fin 0 → Fin SObs.rank) := by decide
theorem b1N : U1.BroadcastsInDim SObs (![0] : Fin 1 → Fin SObs.rank) := by decide
theorem bN1 : SObs.BroadcastsInDim SObs1 (![0] : Fin 1 → Fin SObs1.rank) := by decide
theorem sl0 : SObs3.Slices ![0, 0] SObs1 := by decide
theorem sl1 : SObs3.Slices ![0, 1] SObs1 := by decide
theorem c1N : SObs1.ShapeCasts SObs := by decide
theorem cNT : SObs.ShapeCasts STile := by decide
theorem cTN : STile.ShapeCasts SObs := by decide
theorem gwf : GatherDims.WF STab SObs1 SObs [] [0] [] [0] [] 1 ![1] := by decide

/-- `table[idx]` for a flat table of 1000 entries and a column of 4194304 start indices. -/
def lookup : GatherDims STab SObs1 SObs where
  offsetDims := []
  collapsedSliceDims := [0]
  operandBatchingDims := []
  startIndicesBatchingDims := []
  startIndexMap := [0]
  indexVectorDim := 1
  sliceSizes := ![1]
  wf := gwf

variable {F : FTy → Type} [FloatOps F]

/-! ## The model, on whole arrays -/

/-- The logistic function as it is lowered: `1 / (1 + exp(−x))`, on a one-entry vector. -/
def sigm (x : FVec F U1 .f32) : FVec F U1 .f32 :=
  Host.divf (broadcastInDim U1 ![] b01 (constant U0 .f32 0x3F800000#32))
    (addf (broadcastInDim U1 ![] b01 (constant U0 .f32 0x3F800000#32)) (Host.exp (Host.negf x)))

/-- The lower and upper bound from two raw parameters in either order, and the ramp's denominator `ub − lb + ε`. -/
def lower (a b : FVec F U1 .f32) : FVec F U1 .f32 := sigm (minimumf a b)
def upper (a b : FVec F U1 .f32) : FVec F U1 .f32 := sigm (maximumf a b)
def denom (a b : FVec F U1 .f32) : FVec F U1 .f32 :=
  addf (subf (upper a b) (lower a b)) (broadcastInDim U1 ![] b01 (constant U0 .f32 0x38D1B717#32))

/-- The ramp of one number. -/
def ramp (lb ub den x : F .f32) : F .f32 :=
  Scalar.select (FloatOps.cmpf .ole x lb) (FloatOps.ofBits .f32 0x3F800000#32)
    (Scalar.select (FloatOps.cmpf .ogt x ub) (FloatOps.ofBits .f32 0x00000000#32)
      (FloatOps.hostDivf (FloatOps.subf ub x) den))

/-- The ramp of every entry of a vector of any length, as two nested `where`s over broadcast one-entry bounds. -/
def rampV (n : Nat) (h1 : U1.BroadcastsInDim (vec n) (![0] : Fin 1 → Fin (vec n).rank))
    (h0 : U0.BroadcastsInDim (vec n) (![] : Fin 0 → Fin (vec n).rank)) (lb ub den : FVec F U1 .f32)
    (x : FVec F (vec n) .f32) : FVec F (vec n) .f32 :=
  select (cmpf .ole x (broadcastInDim (vec n) ![0] h1 lb))
    (broadcastInDim (vec n) ![] h0 (constant U0 .f32 0x3F800000#32))
    (select (cmpf .ogt x (broadcastInDim (vec n) ![0] h1 ub))
      (broadcastInDim (vec n) ![] h0 (constant U0 .f32 0x00000000#32))
      (Host.divf (subf (broadcastInDim (vec n) ![0] h1 ub) x) (broadcastInDim (vec n) ![0] h1 den)))

/-- Entry `k` of the vector ramp is the ramp of entry `k`, with the bounds' one value each. -/
theorem rampV_apply (n : Nat) (h1 : U1.BroadcastsInDim (vec n) (![0] : Fin 1 → Fin (vec n).rank))
    (h0 : U0.BroadcastsInDim (vec n) (![] : Fin 0 → Fin (vec n).rank)) (lb ub den : FVec F U1 .f32)
    (x : FVec F (vec n) .f32) (k : (vec n).Idx) :
    rampV n h1 h0 lb ub den x k = ramp (lb (ix1 0)) (ub (ix1 0)) (den (ix1 0)) (x k) := by
  show Scalar.select (FloatOps.cmpf .ole (x k) (broadcastInDim (vec n) ![0] h1 lb k))
      (broadcastInDim (vec n) ![] h0 (constant U0 .f32 0x3F800000#32) k)
      (Scalar.select (FloatOps.cmpf .ogt (x k) (broadcastInDim (vec n) ![0] h1 ub k))
        (broadcastInDim (vec n) ![] h0 (constant U0 .f32 0x00000000#32) k)
        (FloatOps.hostDivf (FloatOps.subf (broadcastInDim (vec n) ![0] h1 ub k) (x k))
          (broadcastInDim (vec n) ![0] h1 den k))) = _
  rw [bcast_unit_apply, bcast_unit_apply, bcast_unit_apply, bcast_scalar_apply, bcast_scalar_apply]
  rfl

/-- THE LOOKUP LAW: the ramp values of a table, looked up, are the ramps of the looked-up entries. -/
theorem gather_ramp {n k : Nat} {si : Shape} {w : Nat} (d : GatherDims (vec n) si (vec k)) (idx : IVec si w)
    (h1 : U1.BroadcastsInDim (vec n) (![0] : Fin 1 → Fin (vec n).rank))
    (h0 : U0.BroadcastsInDim (vec n) (![] : Fin 0 → Fin (vec n).rank))
    (h1' : U1.BroadcastsInDim (vec k) (![0] : Fin 1 → Fin (vec k).rank))
    (h0' : U0.BroadcastsInDim (vec k) (![] : Fin 0 → Fin (vec k).rank))
    (lb ub den : FVec F U1 .f32) (x : FVec F (vec n) .f32) :
    Host.gather d (rampV n h1 h0 lb ub den x) idx = rampV k h1' h0' lb ub den (Host.gather d x idx) := by
  funext j
  rw [rampV_apply]
  show rampV n h1 h0 lb ub den x (d.operandIdx j idx) = _
  rw [rampV_apply]
  rfl

/-- Column `off 1` of the index triples as a column of start indices, a negative entry wrapped by the table's
    length (`select(v < 0, v + 1000, v)`). -/
def startIdx (off : Fin 2 → Nat) (hs : SObs3.Slices off SObs1) (x1 : IVec SObs3 32) : IVec SObs1 32 :=
  broadcastInDim SObs1 ![0] bN1
    (select (cmpi .slt (shapeCast SObs (extractStridedSlice SObs1 off x1 hs) c1N)
        (broadcastInDim SObs ![] b0N (constantI U0 32 0#32)))
      (addi (shapeCast SObs (extractStridedSlice SObs1 off x1 hs) c1N)
        (broadcastInDim SObs ![] b0N (constantI U0 32 1000#32)))
      (shapeCast SObs (extractStridedSlice SObs1 off x1 hs) c1N))

/-- LOOK UP, THEN EVALUATE: the ramps of the looked-up centres, multiplied, times `r`. -/
def perfLookupFirst (c : FVec F STab .f32) (x1 : IVec SObs3 32) (a1 b1 a2 b2 resp : FVec F U1 .f32) : FVec F SObs .f32 :=
  mulf
    (mulf (rampV 4194304 b1N b0N (lower a1 b1) (upper a1 b1) (denom a1 b1) (Host.gather lookup c (startIdx ![0, 0] sl0 x1)))
      (rampV 4194304 b1N b0N (lower a2 b2) (upper a2 b2) (denom a2 b2) (Host.gather lookup c (startIdx ![0, 1] sl1 x1))))
    (broadcastInDim SObs ![0] b1N (sigm resp))

/-- The first table of ramp values, `r` folded in; and the second. -/
def table1 (c : FVec F STab .f32) (a1 b1 resp : FVec F U1 .f32) : FVec F STab .f32 :=
  mulf (rampV 1000 b1T b0T (lower a1 b1) (upper a1 b1) (denom a1 b1) c) (broadcastInDim STab ![0] b1T (sigm resp))
def table2 (c : FVec F STab .f32) (a2 b2 : FVec F U1 .f32) : FVec F STab .f32 :=
  rampV 1000 b1T b0T (lower a2 b2) (upper a2 b2) (denom a2 b2) c

/-- The two looked-up streams of ramp values, as 32768 × 128 tiles. -/
def stream1 (c : FVec F STab .f32) (x1 : IVec SObs3 32) (a1 b1 resp : FVec F U1 .f32) : FVec F STile .f32 :=
  shapeCast STile (Host.gather lookup (table1 c a1 b1 resp) (startIdx ![0, 0] sl0 x1)) cNT
def stream2 (c : FVec F STab .f32) (x1 : IVec SObs3 32) (a2 b2 : FVec F U1 .f32) : FVec F STile .f32 :=
  shapeCast STile (Host.gather lookup (table2 c a2 b2) (startIdx ![0, 1] sl1 x1)) cNT

/-- EVALUATE, THEN LOOK UP: the two streams multiplied tile by tile, flattened. -/
def perfTablesFirst (c : FVec F STab .f32) (x1 : IVec SObs3 32) (a1 b1 a2 b2 resp : FVec F U1 .f32) : FVec F SObs .f32 :=
  shapeCast SObs (mulf (stream1 c x1 a1 b1 resp) (stream2 c x1 a2 b2)) cTN

/-! ## The two arrangements are one function on the extended reals -/

/-- `(a · r) · b = (a · b) · r` entry by entry: multiplication of extended reals is commutative and associative. -/
theorem mulf_right_comm {s : Shape} (a r b : FVec Ideal s .f32) : mulf (mulf a r) b = mulf (mulf a b) r := by
  funext i
  show a i * r i * b i = a i * b i * r i
  exact mul_right_comm _ _ _

/-- Evaluating the tables first and looking the values up is looking the centres up first and evaluating. -/
theorem tablesFirst_eq_lookupFirst (c : FVec Ideal STab .f32) (x1 : IVec SObs3 32) (a1 b1 a2 b2 resp : FVec Ideal U1 .f32) :
    perfTablesFirst c x1 a1 b1 a2 b2 resp = perfLookupFirst c x1 a1 b1 a2 b2 resp := by
  unfold perfTablesFirst stream1 stream2
  rw [mulf_reshaped_back]
  unfold table1 table2 perfLookupFirst
  rw [gather_ramp lookup _ b1T b0T b1N b0N]
  rw [← mulf_right_comm]
  congr 1
  show mulf (Host.gather lookup (rampV 1000 b1T b0T _ _ _ c) _) (Host.gather lookup (broadcastInDim STab ![0] b1T (sigm resp)) _) = _
  rw [gather_ramp lookup _ b1T b0T b1N b0N]
  congr 1
  funext j
  show broadcastInDim STab ![0] b1T (sigm resp) _ = _
  rw [bcast_unit_apply, bcast_unit_apply]

end Cert.Perf

end
-- ==== Proof.KernelValue.lean ====
/-
  The kernel program's result as one function of its argument arrays.

  Before the region the host lines evaluate the two tables of ramp values over the 1000 bin centres (the response factor
  folded into the first), look each up at one column of the observations' indices, and lay the two streams of 4194304
  values out as 32768 × 128 tiles: those are the region's two operand arrays (`operand1`, `operand2`). The region leaves
  their entrywise product in its result array (`Blocks.region_result`), and the one host line after it flattens that
  array to the 4194304 results (`tail_result`). Put together: the program's result is `Perf.perfTablesFirst` of its
  arguments (`result_eq`), on every weakly fair execution, the arguments unchanged (`run`).
-/
import proofs.«124647_j6064493822065_2_alg».proof.Proof.KernelBlocks
import proofs.«124647_j6064493822065_2_alg».proof.Proof.PerfSpec
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

set_option maxHeartbeats 20000000 in
/-- The region's first operand array: the first table's values looked up at column 0 of the indices, as tiles. -/
theorem operand1 (c : Dev nD) : (V m c main_v80 : S32768x128.Idx → Elt F .f32)
    = Cert.Perf.stream1 (m ((c : Thread nD τ).loc main_arg0)) (m ((c : Thread nD τ).loc main_arg1))
        (m ((c : Thread nD τ).loc main_arg2)) (m ((c : Thread nD τ).loc main_arg3)) (m ((c : Thread nD τ).loc main_arg6)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 20000000 in
/-- The region's second operand array: the second table's values looked up at column 1 of the indices, as tiles. -/
theorem operand2 (c : Dev nD) : (V m c main_v81 : S32768x128.Idx → Elt F .f32)
    = Cert.Perf.stream2 (m ((c : Thread nD τ).loc main_arg0)) (m ((c : Thread nD τ).loc main_arg1))
        (m ((c : Thread nD τ).loc main_arg4)) (m ((c : Thread nD τ).loc main_arg5)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- The host line after the region flattens the region's result array. -/
theorem tail_result (c : Dev nD) :
    Pipeline.afterTail₀ cfgs (dats m) 0 (V0 m) [hostOps1] c main_v83
      = shapeCast S4194304 ((dats m 0 c).arrAt 2 cfg0.N) shapeCasts_S32768x128_S4194304 := by
  unfold Pipeline.afterTail₀
  show StableHlo.after hostOps1 _ (Proc.devRef .tc main_v83) = _
  after_results
  have e : Pipeline.withArrays (cfgs 0).spec c (V0 m c) (fun w => (dats m 0 c).arrAt w (cfgs 0).N) (Proc.devRef .tc main_v82)
      = (dats m 0 c).arrAt 2 cfg0.N :=
    Pipeline.withArrays_arr spec0 launch0.win.arr_inj c _ _ 2
  funext i
  exact congrArg (fun A => shapeCast S4194304 A shapeCasts_S32768x128_S4194304 i) e

/-- THE PROGRAM'S RESULT: the two looked-up streams of ramp values multiplied tile by tile and flattened. -/
theorem result_eq (c : Dev nD) :
    Pipeline.afterTail₀ cfgs (dats m) 0 (V0 m) [hostOps1] c main_v83
      = Cert.Perf.perfTablesFirst (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [tail_result, Blocks.region_result, operand1, operand2]
  rfl

/-- The run, read: on every weakly fair execution the result buffer ends at `Perf.perfTablesFirst` of the arguments, and
    the arguments end as launched. -/
theorem run : θ_run defs (onTc (τ := τ) (main (F := F))) ⟨m, fun _ => 0, ρ⟩ fun r => ∀ c : Dev nD,
      r.2.mem ((c.tc : Thread nD τ).loc main_v83)
        = Cert.Perf.perfTablesFirst (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v83 (Pipeline.mem_restRefs_of main_v83 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand

end
-- ==== Proof.RefValue.lean ====
/-
  The reference program's result as the same model, looked up first: its run's composed term is, operation for
  operation, `Perf.perfLookupFirst` of its arguments — the bin centres looked up at the two index columns, the two ramps
  applied to the 4194304 looked-up values, their product, times the response factor.
-/
import proofs.«124647_j6064493822065_2_alg».proof.Proof.Gen.ReferenceIdeal.Run
import proofs.«124647_j6064493822065_2_alg».proof.Proof.PerfSpec

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The reference's result term is the model with the lookups first. -/
theorem result_eq (m : (ℓ : Loc nD τ sig) → Buf (Elt F) ℓ) (c : Dev nD) :
    Cert.ReferenceIdeal.Value.res_main_v80 m c
      = Cert.Perf.perfLookupFirst (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.Value.res_main_v80
  rfl

end Cert.ReferenceIdeal.Hand

end
-- ==== Proof.lean ====
/-
  A piecewise-linear performance model over 4194304 observations, computed two ways, is one function on the extended reals.

  Each observation `n` names two bins; with `c` the 1000 bin centres, `ramp` the clipped linear ramp between two logistic
  bounds and `r` a logistic response factor, the result is `ramp₁(c[i₀ n]) · ramp₂(c[i₁ n]) · r`. The reference looks the
  centres up, applies the ramps to the looked-up values and multiplies by `r` last. The kernel program applies the ramps
  to the 1000 table entries, folds `r` into the first table, looks the ramp values up, and multiplies the two streams
  in a tiled elementwise pass over 32768 × 128 (four blocks of 8192 rows), flattening the product at the end.

  * The kernel program's result is `Perf.perfTablesFirst` of its arguments: the region leaves the product of its two
    operand arrays, because its four blocks tile the result and each is the product of the matching operand blocks
    (Proof/KernelBlocks.lean); the operand arrays are the looked-up tables, and the line after the region flattens
    (Proof/KernelValue.lean).
  * The reference's result is `Perf.perfLookupFirst` of its arguments (Proof/RefValue.lean).
  * The two are equal: a lookup only chooses an entry, so it commutes with the ramp applied entry by entry, and
    `(a · r) · b = (a · b) · r` for extended reals (Proof/PerfSpec.lean). No finiteness of the inputs is used.

  The three frames are the programs' runs with the results dropped; the idealization rewrote nothing.
-/
import proofs.«124647_j6064493822065_2_alg».proof.Defs
import proofs.«124647_j6064493822065_2_alg».proof.Proof.Gen.Kernel
import proofs.«124647_j6064493822065_2_alg».proof.Proof.Gen.Kernel.Skeleton
import proofs.«124647_j6064493822065_2_alg».proof.Proof.Gen.Kernel.Launch
import proofs.«124647_j6064493822065_2_alg».proof.Proof.Gen.Kernel.Points
import proofs.«124647_j6064493822065_2_alg».proof.Proof.Gen.Kernel.Frame
import proofs.«124647_j6064493822065_2_alg».proof.Proof.Gen.KernelIdeal
import proofs.«124647_j6064493822065_2_alg».proof.Proof.Gen.KernelIdeal.Skeleton
import proofs.«124647_j6064493822065_2_alg».proof.Proof.Gen.KernelIdeal.Launch
import proofs.«124647_j6064493822065_2_alg».proof.Proof.Gen.KernelIdeal.Points
import proofs.«124647_j6064493822065_2_alg».proof.Proof.Gen.KernelIdeal.Frame
import proofs.«124647_j6064493822065_2_alg».proof.Proof.Gen.ReferenceIdeal
import proofs.«124647_j6064493822065_2_alg».proof.Proof.Gen.Pre_finite_inputs
import proofs.«124647_j6064493822065_2_alg».proof.Proof.Gen.ReferenceIdeal.Run
import proofs.«124647_j6064493822065_2_alg».proof.Proof.KernelValue
import proofs.«124647_j6064493822065_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the model's value of their arguments: the kernel program's arrangement (tables first) equals
    the reference's (lookups first) on the extended reals, and the arguments agree. -/
theorem algebraic : Cert.algebraic_KernelIdeal_ReferenceIdeal := by
  intro m ρ m' ρ' _ hagree
  refine ⟨fun c => Cert.Perf.perfLookupFirst (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Perf.tablesFirst_eq_lookupFirst _ _ _ _ _ _ _), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Hand.result_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
